-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩
abbrev S400 : Shape := ⟨1, ![400]⟩
abbrev S400x1 : Shape := ⟨2, ![400, 1]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  concatenates_S200x128_S200x128_S400x128_d0 : Shape.Concatenates [S200x128, S200x128] S400x128 0
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S200x10000_S10000x128_S200x128_1_0_0_1_n_n_wf : DotDims.WF S200x10000 S10000x128 S200x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000x1, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  shapeCasts_S10000_S10000x1 : S10000.ShapeCasts S10000x1
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibFrameShared.lean ====
/-
  A frame run for a one-region pipeline whose input windows may stand on ONE array.

  When a kernel is handed the same array through several input windows, the windows' arrays are no longer pairwise
  distinct buffers, and no window can hold its array at the full share: the buffer's one full share has to be dealt
  among the windows on it. The statement below is the plain frame run with that one change. In place of "every window
  holds its array at the full share" the caller says how the distinct buffers behind the arrays, each whole at the
  full share at the contents the region finds, make the proof data's arrays at entry (`hsplit`: a buffer read by two
  windows is split into two half shares). The region invariant is the core's scoped buffers that are no staging
  buffer; the unscoped buffers that are no window's array bypass the region and are read back unchanged. The
  conclusion is the library's `FramePost`: every window's array ends at `Dat.arrAt w N`, every bypassing buffer
  at its region-entry contents.
-/
import Idealize.ShloMosaic.Lib.Pipeline.Frame

noncomputable section

namespace FrameShared

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.TcCoe Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN of a kernel whose input windows may share arrays (`WinFacts₀`: the arrays need not be distinct
    buffers). `hsplit` deals each buffer's full share among the windows on it; `hΦ` says the region invariant is the
    scoped rest, constant in the point. Every weakly fair execution of @main terminates, nothing faults, and the final
    state satisfies `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end FrameShared

end
-- ==== Proof.KernelFrame.lean ====
/-
  The frame run of the graph-convolution kernel, written for any value instance.

  @main reshapes the bias to one row and then runs one region of 25 grid points. Point t stages rows
  [400 t, 400 t + 200) and [400 t + 200, 400 t + 400) of the adjacency matrix through TWO input windows on the SAME
  array, the whole feature matrix, the whole weight and the bias row through three windows that never move, and
  writes back rows [400 t, 400 t + 400) of the result. The body loads its five input buffers whole, computes one
  400 x 128 value (the skeleton's payload) and stores it over the whole output buffer. So after the body every input
  buffer holds its block again and the output buffer holds the payload of the five blocks.

  Because two windows stand on one array, that array's full share is dealt in two halves, one per window
  (`hsplit`); the launch is the shared-array frame run.
-/
import proofs.«131740_g8435315769432_cont_9to1_m_1355_7_alg».proof.Proof.Gen.Kernel.Launch
import proofs.«131740_g8435315769432_cont_9to1_m_1355_7_alg».proof.Proof.Gen.Kernel.Skeleton
import proofs.«131740_g8435315769432_cont_9to1_m_1355_7_alg».proof.Proof.Gen.Kernel.Points
import proofs.«131740_g8435315769432_cont_9to1_m_1355_7_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the bias reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: the feature matrix, the adjacency matrix and the weight are staged inputs,
    never written back; the bias is no window's array and bypasses the region. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## The body's accesses -/

abbrev rAdj : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S400x128 := Rect.unit (s := S400x128) ![0, 0] S400x128.size inb_S400x128_S400x128_0_0

/-! ## What the body leaves in the output window's buffer -/

/-- The output buffer after the body: its one store, the payload of the five loaded blocks, over the whole buffer. -/
def outBuf (x0 x1 : Vec F S200x10000 .f32) (x2 : Vec F S10000x128 .f32) (x3 : Vec F S128x128 .f32) (x4 : Vec F S1x128 .f32) : Vec F S400x128 .f32 :=
  View.canon [⟨rOut, k0_pay1 (View.ld x2 rFeat) (View.ld x0 rAdj) (View.ld x1 rAdj) (View.ld x3 rWeight) (View.ld x4 rBias)⟩]

/-- The one store covers the buffer. -/
theorem cover_out (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 1000000 in
/-- The body on whole staging memrefs, the inputs' at read contents `xW` and the output's at anything, runs to the
    continuation holding the inputs' as they were and the output's at `outBuf` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (x0 x1 : Vec F S200x10000 .f32) (x2 : Vec F S10000x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBuf x0 x1 x2 x3 x4)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBuf` of the blocks; the invariant the scoped rest; nothing owed; the
    adjacency array's share dealt in halves between its two windows, the other inputs at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBuf (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: one array's share dealt between its two windows -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

theorem arrAt_zero (c : Dev nD) (w : Fin cfg0.W) : (dats m 0 c).arrAt w 0 = V m c (Pipeline.arrRef spec0 w) := by
  rw [show (dats m 0 c).arrAt w 0 = (dats m 0 c).A w from rfl, A_eq]

/-- The five distinct buffers behind the six windows' arrays, each whole at the full share, make the proof data's
    arrays at entry: the adjacency buffer's full share is split into its left half for the even-strip window and its
    right half for the odd-strip window; every other buffer goes whole to its one window. -/
theorem hsplit (c : Dev nD) : (Pipeline.arrBufs spec0 c (V m c) : sProp 𝕄) ⊢ (dats m 0 c).arrays ((dats m 0 c).arrAt · 0) := by
  unfold Pipeline.arrBufs Dat.arrays
  rw [show Finset.univ.image (Pipeline.arrRef spec0) = [main_arg1, main_arg0, main_arg2, main_v0, main_v1].toFinset from by decide]
  rw [show bigSep ([main_arg1, main_arg0, main_arg2, main_v0, main_v1].toFinset) (fun b => (((c.tc : Thread nD τ).loc b) ↦{fullShare} V m c b : sProp 𝕄))
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)
          ∗ (((c.tc : Thread nD τ).loc main_v1) ↦{fullShare} V m c main_v1))
      from bigSep_eq_bigSepL [main_arg1, main_arg0, main_arg2, main_v0, main_v1] (by decide) _, bigSep_W0]
  rw [(arr_whole0 0).set_eq_univ, (arr_whole0 2).set_eq_univ, (arr_whole0 3).set_eq_univ, (arr_whole0 4).set_eq_univ, (arr_whole0 5).set_eq_univ]
  simp only [share0, share1, share2, share3, share4, share5, arrAt_zero]
  iintro ⟨H1, H0, H2, H3, H4⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  iexact H4

/-! ## The run and the frame -/

set_option backward.isDefEq.respectTransparency.types false in
/-- From any memory with zero counters every weakly fair execution of @main terminates, nothing faults, every window's
    array ends at what the write-backs leave of the proof data, and the bias ends as the region found it. -/
theorem run_main : θ_run defs (onTc (τ := τ) (main (F := F))) (s₀ m ρ) (Pipeline.FramePost cfgs (dats m) 0 (V m)) :=
  FrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- THE FRAME: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KernelIdealFrame.lean ====
/-
  The frame run of the graph-convolution kernel, written for any value instance.

  @main reshapes the bias to one row and then runs one region of 25 grid points. Point t stages rows
  [400 t, 400 t + 200) and [400 t + 200, 400 t + 400) of the adjacency matrix through TWO input windows on the SAME
  array, the whole feature matrix, the whole weight and the bias row through three windows that never move, and
  writes back rows [400 t, 400 t + 400) of the result. The body loads its five input buffers whole, computes one
  400 x 128 value (the skeleton's payload) and stores it over the whole output buffer. So after the body every input
  buffer holds its block again and the output buffer holds the payload of the five blocks.

  Because two windows stand on one array, that array's full share is dealt in two halves, one per window
  (`hsplit`); the launch is the shared-array frame run.
-/
import proofs.«131740_g8435315769432_cont_9to1_m_1355_7_alg».proof.Proof.Gen.KernelIdeal.Launch
import proofs.«131740_g8435315769432_cont_9to1_m_1355_7_alg».proof.Proof.Gen.KernelIdeal.Skeleton
import proofs.«131740_g8435315769432_cont_9to1_m_1355_7_alg».proof.Proof.Gen.KernelIdeal.Points
import proofs.«131740_g8435315769432_cont_9to1_m_1355_7_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the bias reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: the feature matrix, the adjacency matrix and the weight are staged inputs,
    never written back; the bias is no window's array and bypasses the region. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c)⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## The body's accesses -/

abbrev rAdj : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S400x128 := Rect.unit (s := S400x128) ![0, 0] S400x128.size inb_S400x128_S400x128_0_0

/-! ## What the body leaves in the output window's buffer -/

/-- The output buffer after the body: its one store, the payload of the five loaded blocks, over the whole buffer. -/
def outBuf (x0 x1 : Vec F S200x10000 .f32) (x2 : Vec F S10000x128 .f32) (x3 : Vec F S128x128 .f32) (x4 : Vec F S1x128 .f32) : Vec F S400x128 .f32 :=
  View.canon [⟨rOut, k0_pay1 (View.ld x2 rFeat) (View.ld x0 rAdj) (View.ld x1 rAdj) (View.ld x3 rWeight) (View.ld x4 rBias)⟩]

/-- The one store covers the buffer. -/
theorem cover_out (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 1000000 in
/-- The body on whole staging memrefs, the inputs' at read contents `xW` and the output's at anything, runs to the
    continuation holding the inputs' as they were and the output's at `outBuf` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (x0 x1 : Vec F S200x10000 .f32) (x2 : Vec F S10000x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBuf x0 x1 x2 x3 x4)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBuf` of the blocks; the invariant the scoped rest; nothing owed; the
    adjacency array's share dealt in halves between its two windows, the other inputs at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBuf (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: one array's share dealt between its two windows -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

theorem arrAt_zero (c : Dev nD) (w : Fin cfg0.W) : (dats m 0 c).arrAt w 0 = V m c (Pipeline.arrRef spec0 w) := by
  rw [show (dats m 0 c).arrAt w 0 = (dats m 0 c).A w from rfl, A_eq]

/-- The five distinct buffers behind the six windows' arrays, each whole at the full share, make the proof data's
    arrays at entry: the adjacency buffer's full share is split into its left half for the even-strip window and its
    right half for the odd-strip window; every other buffer goes whole to its one window. -/
theorem hsplit (c : Dev nD) : (Pipeline.arrBufs spec0 c (V m c) : sProp 𝕄) ⊢ (dats m 0 c).arrays ((dats m 0 c).arrAt · 0) := by
  unfold Pipeline.arrBufs Dat.arrays
  rw [show Finset.univ.image (Pipeline.arrRef spec0) = [main_arg1, main_arg0, main_arg2, main_v0, main_v1].toFinset from by decide]
  rw [show bigSep ([main_arg1, main_arg0, main_arg2, main_v0, main_v1].toFinset) (fun b => (((c.tc : Thread nD τ).loc b) ↦{fullShare} V m c b : sProp 𝕄))
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)
          ∗ (((c.tc : Thread nD τ).loc main_v1) ↦{fullShare} V m c main_v1))
      from bigSep_eq_bigSepL [main_arg1, main_arg0, main_arg2, main_v0, main_v1] (by decide) _, bigSep_W0]
  rw [(arr_whole0 0).set_eq_univ, (arr_whole0 2).set_eq_univ, (arr_whole0 3).set_eq_univ, (arr_whole0 4).set_eq_univ, (arr_whole0 5).set_eq_univ]
  simp only [share0, share1, share2, share3, share4, share5, arrAt_zero]
  iintro ⟨H1, H0, H2, H3, H4⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  iexact H4

/-! ## The run and the frame -/

set_option backward.isDefEq.respectTransparency.types false in
/-- From any memory with zero counters every weakly fair execution of @main terminates, nothing faults, every window's
    array ends at what the write-backs leave of the proof data, and the bias ends as the region found it. -/
theorem run_main : θ_run defs (onTc (τ := τ) (main (F := F))) (s₀ m ρ) (Pipeline.FramePost cfgs (dats m) 0 (V m)) :=
  FrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- THE FRAME: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.Spec.lean ====
/-
  The function both programs compute, over the extended reals.

  With X the 10000 x 128 feature matrix, A the 10000 x 10000 adjacency matrix, W the 128 x 128 weight and b the bias,
  row r of the result is row r of (A X) W + b divided by that row's Euclidean norm:

      lin r j = (sum over k of (sum over l of A[r,l] X[l,k]) W[k,j]) + b[j]
      G (r,j) = lin r j / sqrt (sum over j' of (lin r j')^2)

  Both sides group the two matrix products the same way, so no law of the extended reals is needed to join them:
  the kernel's row blocks and the reference's whole arrays are this one function read at different indices.
-/
import Idealize.ShloMosaic.PureOps.Ideal
import Idealize.ShloMosaic.Lib.ValueIdx

noncomputable section

namespace Cert.GcnSpec

open Idealize.ShloMosaic Idealize.ShloMosaic.ValueIdx

abbrev SFeat : Shape := ⟨2, ![10000, 128]⟩
abbrev SAdj : Shape := ⟨2, ![10000, 10000]⟩
abbrev SWeight : Shape := ⟨2, ![128, 128]⟩
abbrev SBias : Shape := ⟨1, ![128]⟩

/-- Row `r`, column `j` of (A X) W + b. -/
def lin (X : SFeat.Idx → EReal) (A : SAdj.Idx → EReal) (W : SWeight.Idx → EReal) (b : SBias.Idx → EReal)
    (r : Fin 10000) (j : Fin 128) : EReal :=
  (∑ k : Fin 128, (∑ l : Fin 10000, A (ix2 r l) * X (ix2 l k)) * W (ix2 k j)) + b (ix1 j)

/-- The squared Euclidean norm of row `r` of (A X) W + b. -/
def sumSq (X : SFeat.Idx → EReal) (A : SAdj.Idx → EReal) (W : SWeight.Idx → EReal) (b : SBias.Idx → EReal)
    (r : Fin 10000) : EReal :=
  ∑ j : Fin 128, lin X A W b r j * lin X A W b r j

/-- The result array: each row of (A X) W + b over its Euclidean norm. -/
def G (X : SFeat.Idx → EReal) (A : SAdj.Idx → EReal) (W : SWeight.Idx → EReal) (b : SBias.Idx → EReal) :
    SFeat.Idx → EReal := fun i =>
  Ideal.div (lin X A W b (i 0) (i 1)) (Ideal.sqrt (sumSq X A W b (i 0)))

theorem G_apply (X : SFeat.Idx → EReal) (A : SAdj.Idx → EReal) (W : SWeight.Idx → EReal) (b : SBias.Idx → EReal)
    (r : Fin 10000) (j : Fin 128) :
    G X A W b (ix2 r j) = Ideal.div (lin X A W b r j) (Ideal.sqrt (sumSq X A W b r)) := rfl

end Cert.GcnSpec

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KernelPayload.lean ====
/-
  The kernel body's one stored value, read at a row and a column over the extended reals.

  The body stacks two 200-row strips of the adjacency matrix, each multiplied by the whole feature matrix, multiplies
  the 400 x 128 stack by the weight, adds the bias row, and divides each row by the square root of the sum of its
  squares. If the two strips are rows [base, base + 200) and [base + 200, base + 400) of the adjacency matrix A, the
  feature, weight and bias blocks the whole arrays X, W and the bias b, then the value at (p, q) is the
  specification's `G` at row base + p, column q: every stage below is the corresponding stage of `G` at that row.
-/
import proofs.«131740_g8435315769432_cont_9to1_m_1355_7_alg».proof.Proof.Gen.KernelIdeal.Skeleton
import proofs.«131740_g8435315769432_cont_9to1_m_1355_7_alg».proof.Proof.Spec
import proofs.«131740_g8435315769432_cont_9to1_m_1355_7_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.GcnSpec Idealize.ShloMosaic Idealize.ShloMosaic.ValueIdx
open Cert.KernelIdeal.Facts₀

theorem lt400_of_lt200 {n : Nat} (h : n < 200) : n < 400 := Nat.lt_of_lt_of_le h (by decide)
theorem add_lt400_of_lt200 {n : Nat} (h : n < 200) : 200 + n < 400 := by omega

/-! ## The two matrix products as sums -/

abbrev dotStrip : DotDims S200x10000 S10000x128 S200x128 := dot_S200x10000_S10000x128_S200x128_1_0_0_1_n_n
abbrev dotWeight : DotDims S400x128 S128x128 S400x128 := dot_S400x128_S128x128_S400x128_1_0_0_1_n_n

theorem strip_lhs0 (i : S200x128.Idx) (q : dotStrip.contr.Idx) : (dotStrip.lhsIdx i q 0).val = (i 0).val := by
  unfold DotDims.lhsIdx
  rw [dif_neg (show ¬(0 : Fin S200x10000.rank) ∈ dotStrip.lhsBatch by decide), dif_pos (show (0 : Fin S200x10000.rank) ∈ dotStrip.lhsNonContracting by decide)]
  rfl
theorem strip_rhs1 (i : S200x128.Idx) (q : dotStrip.contr.Idx) : (dotStrip.rhsIdx i q 1).val = (i 1).val := by
  unfold DotDims.rhsIdx
  rw [dif_neg (show ¬(1 : Fin S10000x128.rank) ∈ dotStrip.rhsBatch by decide), dif_pos (show (1 : Fin S10000x128.rank) ∈ dotStrip.rhsNonContracting by decide)]
  rfl

/-- A 200-row strip times the feature matrix, into the zero accumulator: entry (p, k) is the sum over l of
    strip[p, l] X[l, k]. -/
theorem strip_apply (X : FVec Ideal S10000x128 .f32) (x : FVec Ideal S200x10000 .f32) (p : Fin 200) (k : Fin 128) :
    matmul (F := Ideal) dotStrip none x X (constant (F := Ideal) S200x128 .f32 0x00000000#32) (ix2 p k)
      = ∑ l : Fin 10000, x (ix2 p l) * X (ix2 l k) := by
  refine (Ideal.matmul_constant_zero_apply dotStrip none x X (ix2 p k)).trans ?_
  rw [← Equiv.sum_comp (contrEquiv1 dotStrip 10000 rfl rfl).symm]
  refine Finset.sum_congr rfl fun l _ => ?_
  have hl := contrEquiv1_symm_val dotStrip 10000 rfl rfl l
  have el : dotStrip.lhsIdx (ix2 p k) ((contrEquiv1 dotStrip 10000 rfl rfl).symm l) = ix2 p l := funext fun a => Fin.ext (by
    match a with
    | ⟨0, _⟩ => exact strip_lhs0 _ _
    | ⟨1, _⟩ => exact (dotStrip.lhsIdx_val_of_single rfl _ _).trans hl)
  have er : dotStrip.rhsIdx (ix2 p k) ((contrEquiv1 dotStrip 10000 rfl rfl).symm l) = ix2 l k := funext fun a => Fin.ext (by
    match a with
    | ⟨0, _⟩ => exact (dotStrip.rhsIdx_val_of_single rfl _ _).trans hl
    | ⟨1, _⟩ => exact strip_rhs1 _ _)
  rw [el, er]

theorem weight_lhs0 (i : S400x128.Idx) (q : dotWeight.contr.Idx) : (dotWeight.lhsIdx i q 0).val = (i 0).val := by
  unfold DotDims.lhsIdx
  rw [dif_neg (show ¬(0 : Fin S400x128.rank) ∈ dotWeight.lhsBatch by decide), dif_pos (show (0 : Fin S400x128.rank) ∈ dotWeight.lhsNonContracting by decide)]
  rfl
theorem weight_rhs1 (i : S400x128.Idx) (q : dotWeight.contr.Idx) : (dotWeight.rhsIdx i q 1).val = (i 1).val := by
  unfold DotDims.rhsIdx
  rw [dif_neg (show ¬(1 : Fin S128x128.rank) ∈ dotWeight.rhsBatch by decide), dif_pos (show (1 : Fin S128x128.rank) ∈ dotWeight.rhsNonContracting by decide)]
  rfl

/-- The 400-row stack times the weight, into the zero accumulator: entry (p, j) is the sum over k of
    stack[p, k] W[k, j]. -/
theorem weight_apply (y : FVec Ideal S400x128 .f32) (W : FVec Ideal S128x128 .f32) (p : Fin 400) (j : Fin 128) :
    matmul (F := Ideal) dotWeight none y W (constant (F := Ideal) S400x128 .f32 0x00000000#32) (ix2 p j)
      = ∑ k : Fin 128, y (ix2 p k) * W (ix2 k j) := by
  refine (Ideal.matmul_constant_zero_apply dotWeight none y W (ix2 p j)).trans ?_
  rw [← Equiv.sum_comp (contrEquiv1 dotWeight 128 rfl rfl).symm]
  refine Finset.sum_congr rfl fun k _ => ?_
  have hk := contrEquiv1_symm_val dotWeight 128 rfl rfl k
  have el : dotWeight.lhsIdx (ix2 p j) ((contrEquiv1 dotWeight 128 rfl rfl).symm k) = ix2 p k := funext fun a => Fin.ext (by
    match a with
    | ⟨0, _⟩ => exact weight_lhs0 _ _
    | ⟨1, _⟩ => exact (dotWeight.lhsIdx_val_of_single rfl _ _).trans hk)
  have er : dotWeight.rhsIdx (ix2 p j) ((contrEquiv1 dotWeight 128 rfl rfl).symm k) = ix2 k j := funext fun a => Fin.ext (by
    match a with
    | ⟨0, _⟩ => exact (dotWeight.rhsIdx_val_of_single rfl _ _).trans hk
    | ⟨1, _⟩ => exact weight_rhs1 _ _)
  rw [el, er]

/-! ## The body's stages -/

section Stages

variable (X : FVec Ideal S10000x128 .f32) (x0 x1 : FVec Ideal S200x10000 .f32) (W : FVec Ideal S128x128 .f32) (x4 : FVec Ideal S1x128 .f32)

/-- One strip times the features. -/
def strip (x : FVec Ideal S200x10000 .f32) : FVec Ideal S200x128 .f32 :=
  matmul (F := Ideal) dotStrip none x X (constant (F := Ideal) S200x128 .f32 0x00000000#32)

/-- The two products stacked: 400 rows. -/
def stacked : FVec Ideal S400x128 .f32 :=
  concatenate S400x128 0 [⟨S200x128, strip X x0⟩, ⟨S200x128, strip X x1⟩] concatenates_S200x128_S200x128_S400x128_d0

/-- The stack times the weight, plus the bias row. -/
def pre : FVec Ideal S400x128 .f32 :=
  addf (matmul (F := Ideal) dotWeight none (stacked X x0 x1) W (constant (F := Ideal) S400x128 .f32 0x00000000#32))
    (broadcastTo S400x128 (shapeCast S1x128 x4 shapeCasts_S1x128_S1x128) broadcasts_S1x128_S400x128)

/-- Each row's sum of squares. -/
def rowSq : FVec Ideal S400 .f32 :=
  multiReduction (F := Ideal) .add [1] S400 (mulf (pre X x0 x1 W x4) (pre X x0 x1 W x4)) 0x00000000#32 reduces_S400x128_S400 (.inl rfl) rfl

/-- The payload is the quotient of the pre-normalized rows by the broadcast square roots of their sums of squares. -/
theorem pay_eq : Gen.k0_pay1 (F := Ideal) X x0 x1 W x4
    = divf (pre X x0 x1 W x4) (broadcastTo S400x128 (sqrt (shapeCast S400x1 (rowSq X x0 x1 W x4) shapeCasts_S400_S400x1)) broadcasts_S400x1_S400x128) := rfl

/-- A row of the stack in the first strip. -/
theorem stacked_left (p : Fin 200) (k : Fin 128) :
    stacked X x0 x1 (ix2 (⟨p.val, lt400_of_lt200 p.isLt⟩ : Fin 400) k) = strip X x0 (ix2 p k) := by
  unfold stacked
  exact concatenate_pair_apply_left (t := S400x128) (s₁ := S200x128) (s₂ := S200x128) (0 : Fin 2) (strip X x0) (strip X x1) concatenates_S200x128_S200x128_S400x128_d0
    (ix2 (⟨p.val, lt400_of_lt200 p.isLt⟩ : Fin 400) k) rfl (ix2 p k) (fun b => by match b with | ⟨0, _⟩ => rfl | ⟨1, _⟩ => rfl)

/-- A row of the stack in the second strip. -/
theorem stacked_right (p : Fin 200) (k : Fin 128) :
    stacked X x0 x1 (ix2 (⟨200 + p.val, add_lt400_of_lt200 p.isLt⟩ : Fin 400) k) = strip X x1 (ix2 p k) := by
  unfold stacked
  exact concatenate_pair_apply_right (t := S400x128) (s₁ := S200x128) (s₂ := S200x128) (0 : Fin 2) (strip X x0) (strip X x1) concatenates_S200x128_S200x128_S400x128_d0
    (ix2 (⟨200 + p.val, add_lt400_of_lt200 p.isLt⟩ : Fin 400) k) rfl rfl (ix2 p k)
    (fun b hb => by match b with | ⟨0, _⟩ => exact absurd rfl hb | ⟨1, _⟩ => rfl)
    (by show p.val + 200 = 200 + p.val; omega)

end Stages

/-! ## The stages against the specification -/

section AgainstSpec

variable (X : SFeat.Idx → EReal) (A : SAdj.Idx → EReal) (W : SWeight.Idx → EReal) (b : SBias.Idx → EReal)
  (x0 x1 : FVec Ideal S200x10000 .f32) (x2 : FVec Ideal S10000x128 .f32) (x3 : FVec Ideal S128x128 .f32) (x4 : FVec Ideal S1x128 .f32)
  (base : Nat) (hbase : base + 400 ≤ 10000)
  (h0 : ∀ (p : Fin 200) (l : Fin 10000), x0 (ix2 p l) = A (ix2 (⟨base + p.val, by omega⟩ : Fin 10000) l))
  (h1 : ∀ (p : Fin 200) (l : Fin 10000), x1 (ix2 p l) = A (ix2 (⟨base + (200 + p.val), by omega⟩ : Fin 10000) l))
  (h2 : ∀ (l : Fin 10000) (k : Fin 128), x2 (ix2 l k) = X (ix2 l k))
  (h3 : ∀ (k : Fin 128) (j : Fin 128), x3 (ix2 k j) = W (ix2 k j))
  (h4 : ∀ q : Fin 128, x4 (ix2 (0 : Fin 1) q) = b (ix1 q))

include h0 h1 h2 in
/-- Row p of the stack is row base + p of A X. -/
theorem stacked_apply (p : Fin 400) (k : Fin 128) :
    stacked x2 x0 x1 (ix2 p k) = ∑ l : Fin 10000, A (ix2 (⟨base + p.val, by omega⟩ : Fin 10000) l) * X (ix2 l k) := by
  by_cases hp : p.val < 200
  · obtain ⟨p', rfl⟩ : ∃ p' : Fin 200, p = ⟨p'.val, lt400_of_lt200 p'.isLt⟩ := ⟨⟨p.val, hp⟩, rfl⟩
    rw [stacked_left]
    refine (strip_apply x2 x0 p' k).trans ?_
    exact Finset.sum_congr rfl fun l _ => by rw [h0, h2]
  · obtain ⟨p', rfl⟩ : ∃ p' : Fin 200, p = ⟨200 + p'.val, add_lt400_of_lt200 p'.isLt⟩ :=
      ⟨⟨p.val - 200, by omega⟩, Fin.ext (by show p.val = 200 + (p.val - 200); omega)⟩
    rw [stacked_right]
    refine (strip_apply x2 x1 p' k).trans ?_
    exact Finset.sum_congr rfl fun l _ => by rw [h1, h2]

include h0 h1 h2 h3 h4 in
/-- Row p of the pre-normalized block is row base + p of (A X) W + b. -/
theorem pre_apply (p : Fin 400) (j : Fin 128) :
    pre x2 x0 x1 x3 x4 (ix2 p j) = lin X A W b (⟨base + p.val, by omega⟩ : Fin 10000) j := by
  unfold pre lin
  refine (addf_apply _ _ _).trans ?_
  congr 1
  · refine (weight_apply (stacked x2 x0 x1) x3 p j).trans ?_
    exact Finset.sum_congr rfl fun k _ => by rw [stacked_apply X A x0 x1 x2 base hbase h0 h1 h2 p k, h3]
  · refine (broadcastTo_1b_ab_apply _ broadcasts_S1x128_S400x128 p j).trans ?_
    rw [shapeCast_self]
    exact h4 j

include h0 h1 h2 h3 h4 in
/-- Row p's sum of squares is that of row base + p of (A X) W + b. -/
theorem rowSq_apply (p : Fin 400) :
    rowSq x2 x0 x1 x3 x4 (ix1 p) = sumSq X A W b (⟨base + p.val, by omega⟩ : Fin 10000) := by
  unfold rowSq sumSq
  refine (Ideal.multiReduction_add_single (mulf (pre x2 x0 x1 x3 x4) (pre x2 x0 x1 x3 x4)) 0x00000000#32 reduces_S400x128_S400 (.inl rfl) rfl (ix1 p)).trans ?_
  refine Finset.sum_congr rfl fun (j : Fin 128) _ => ?_
  have e : (reduces_S400x128_S400 : S400x128.Reduces [1] S400).lift (ix1 p) j = (ix2 p j : S400x128.Idx) :=
    funext fun a => Fin.ext (by match a with | ⟨0, _⟩ => rfl | ⟨1, _⟩ => rfl)
  refine (congrArg (mulf (pre x2 x0 x1 x3 x4) (pre x2 x0 x1 x3 x4)) e).trans ?_
  refine (mulf_apply _ _ _).trans ?_
  rw [pre_apply X A W b x0 x1 x2 x3 x4 base hbase h0 h1 h2 h3 h4 p j]

include h0 h1 h2 h3 h4 in
/-- THE PAYLOAD at (p, q) is the specification at row base + p, column q. -/
theorem pay_apply (p : Fin 400) (q : Fin 128) :
    Gen.k0_pay1 (F := Ideal) x2 x0 x1 x3 x4 (ix2 p q) = G X A W b (ix2 (⟨base + p.val, by omega⟩ : Fin 10000) q) := by
  rw [pay_eq, G_apply]
  refine (divf_apply _ _ _).trans ?_
  rw [pre_apply X A W b x0 x1 x2 x3 x4 base hbase h0 h1 h2 h3 h4 p q]
  congr 1
  refine (Cert.LibColBroadcast.broadcastTo_a1_ab_apply _ broadcasts_S400x1_S400x128 p q).trans ?_
  show Ideal.sqrt (shapeCast S400x1 (rowSq x2 x0 x1 x3 x4) shapeCasts_S400_S400x1 (ix2 p (0 : Fin 1))) = _
  congr 1
  refine (shapeCast_apply (rowSq x2 x0 x1 x3 x4) shapeCasts_S400_S400x1 (ix2 p (0 : Fin 1)) (ix1 p) ?_).trans ?_
  · rw [Shape.rowMajor_val_one, Shape.rowMajor_val_two]
    show p.val = p.val * 1 + 0
    omega
  · exact rowSq_apply X A W b x0 x1 x2 x3 x4 base hbase h0 h1 h2 h3 h4 p

end AgainstSpec

end Cert.KernelIdeal.Payload

end
-- ==== Proof.KernelValue.lean ====
/-
  The kernel's result array over the extended reals: the specification `G` of the argument arrays.

  Point t of the grid writes back rows [400 t, 400 t + 400) of the result. Its two adjacency blocks are rows
  [400 t, 400 t + 200) and [400 t + 200, 400 t + 400) of the adjacency matrix, its feature and weight blocks are the
  whole arrays, and its bias block is the bias read through the reshape to one row; so what it writes back is block t
  of `G`. The 25 blocks tile the 10000 rows (row r lies in the block of point r / 400), hence the array ends at `G`.
-/
import proofs.«131740_g8435315769432_cont_9to1_m_1355_7_alg».proof.Proof.KernelIdealFrame
import proofs.«131740_g8435315769432_cont_9to1_m_1355_7_alg».proof.Proof.KernelPayload
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Frame Cert.GcnSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification at the argument arrays as launched on core `c`. -/
def Gm (c : Dev nD) : S10000x128.Idx → EReal :=
  G (m ((c : Thread nD τ).loc main_arg0)) (m ((c : Thread nD τ).loc main_arg1)) (m ((c : Thread nD τ).loc main_arg2)) (m ((c : Thread nD τ).loc main_arg3))

/-- The bias row as the region finds it: the bias read through the reshape. -/
theorem V_bias (c : Dev nD) :
    (V m c main_v0 : S1x128.Idx → EReal) = shapeCast S1x128 (m ((c : Thread nD τ).loc main_arg3)) Facts₀.shapeCasts_S128_S1x128 := by
  dsimp only [V, hostOps0]; after_results; rfl

/-- The printed index maps over the grid: the two adjacency windows at block rows 2 t and 2 t + 1, the three resident
    windows at the origin, the output at block row t. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

/-! ## The input blocks at a point -/

theorem blk0 (c : Dev nD) (t : Fin cfg0.N) (p : Fin 200) (l : Fin 10000) :
    iblk m c 0 t (ix2 p l)
      = m ((c : Thread nD τ).loc main_arg1) (ix2 (⟨400 * t.val + p.val, by have := t_lt t; omega⟩ : Fin 10000) l) := by
  obtain ⟨e00, e01, -⟩ := idx_facts t
  refine Eq.trans ?_ (congrFun (V_main_arg1 m c) _)
  show V m c main_arg1 (((cfg0.win 0).blk t).view.emb (ix2 p l)) = _
  refine congrArg (V m c main_arg1) (funext fun a => Fin.ext ?_)
  match a with
  | ⟨0, _⟩ => show win0_0.index t (0 : Fin 2) * 200 + 1 * p.val = 400 * t.val + p.val; omega
  | ⟨1, _⟩ => show win0_0.index t (1 : Fin 2) * 10000 + 1 * l.val = l.val; omega

theorem blk1 (c : Dev nD) (t : Fin cfg0.N) (p : Fin 200) (l : Fin 10000) :
    iblk m c 1 t (ix2 p l)
      = m ((c : Thread nD τ).loc main_arg1) (ix2 (⟨400 * t.val + (200 + p.val), by have := t_lt t; omega⟩ : Fin 10000) l) := by
  obtain ⟨-, -, e10, e11, -⟩ := idx_facts t
  refine Eq.trans ?_ (congrFun (V_main_arg1 m c) _)
  show V m c main_arg1 (((cfg0.win 1).blk t).view.emb (ix2 p l)) = _
  refine congrArg (V m c main_arg1) (funext fun a => Fin.ext ?_)
  match a with
  | ⟨0, _⟩ => show win0_1.index t (0 : Fin 2) * 200 + 1 * p.val = 400 * t.val + (200 + p.val); omega
  | ⟨1, _⟩ => show win0_1.index t (1 : Fin 2) * 10000 + 1 * l.val = l.val; omega

theorem blk2 (c : Dev nD) (t : Fin cfg0.N) (l : Fin 10000) (k : Fin 128) :
    iblk m c 2 t (ix2 l k) = m ((c : Thread nD τ).loc main_arg0) (ix2 l k) := by
  obtain ⟨-, -, -, -, e20, e21, -⟩ := idx_facts t
  refine Eq.trans ?_ (congrFun (V_main_arg0 m c) _)
  show V m c main_arg0 (((cfg0.win 2).blk t).view.emb (ix2 l k)) = _
  refine congrArg (V m c main_arg0) (funext fun a => Fin.ext ?_)
  match a with
  | ⟨0, _⟩ => show win0_2.index t (0 : Fin 2) * 10000 + 1 * l.val = l.val; omega
  | ⟨1, _⟩ => show win0_2.index t (1 : Fin 2) * 128 + 1 * k.val = k.val; omega

theorem blk3 (c : Dev nD) (t : Fin cfg0.N) (k : Fin 128) (j : Fin 128) :
    iblk m c 3 t (ix2 k j) = m ((c : Thread nD τ).loc main_arg2) (ix2 k j) := by
  obtain ⟨-, -, -, -, -, -, e30, e31, -⟩ := idx_facts t
  refine Eq.trans ?_ (congrFun (V_main_arg2 m c) _)
  show V m c main_arg2 (((cfg0.win 3).blk t).view.emb (ix2 k j)) = _
  refine congrArg (V m c main_arg2) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem blk4 (c : Dev nD) (t : Fin cfg0.N) (q : Fin 128) :
    iblk m c 4 t (ix2 (0 : Fin 1) q) = m ((c : Thread nD τ).loc main_arg3) (ix1 q) := by
  obtain ⟨-, -, -, -, -, -, -, -, e40, e41, -⟩ := idx_facts t
  have e : iblk m c 4 t (ix2 (0 : Fin 1) q) = (V m c main_v0 : S1x128.Idx → EReal) (ix2 (0 : Fin 1) q) := by
    show V m c main_v0 (((cfg0.win 4).blk t).view.emb (ix2 (0 : Fin 1) q)) = _
    refine congrArg (V m c main_v0) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  rw [e, V_bias]
  exact shapeCast_a_1a_apply _ _ (0 : Fin 1) q

/-! ## What a point writes back -/

/-- WHAT POINT `t` WRITES BACK is block `t` of the specification. -/
theorem flushed_eq (c : Dev nD) (t : Fin cfg0.N) :
    (dats m 0 c).flushed 5 t = ((cfg0.win 5).blk t).view.read (Elt Ideal) (Gm m c) := by
  show (cfg0.win 5).cut (grid0.coords t) ((dats m 0 c).after 5 t) = _
  rw [after0_5]
  unfold outBuf
  rw [View.canon_unit_zero hz]
  simp only [View.ld_unit_zero (S := S200x10000) hz, View.ld_unit_zero (S := S10000x128) hz, View.ld_unit_zero (S := S128x128) hz, View.ld_unit_zero (S := S1x128) hz]
  refine funext fun (y : S400x128.Idx) => ?_
  obtain ⟨p, q, rfl⟩ : ∃ (p : Fin 400) (q : Fin 128), y = ix2 p q := ⟨y 0, y 1, eq_ix2 y⟩
  have ht := t_lt t
  refine (Payload.pay_apply (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (iblk m c 4 t) (400 * t.val) (by omega)
    (blk0 m c t) (blk1 m c t) (blk2 m c t) (blk3 m c t) (blk4 m c t) p q).trans ?_
  obtain ⟨-, -, -, -, -, -, -, -, -, -, e50, e51⟩ := idx_facts t
  show Gm m c _ = Gm m c (((cfg0.win 5).blk t).view.emb (ix2 p q))
  refine congrArg (Gm m c) (funext fun a => Fin.ext ?_)
  match a with
  | ⟨0, _⟩ => show 400 * t.val + p.val = win0_5.index t (0 : Fin 2) * 400 + 1 * p.val; omega
  | ⟨1, _⟩ => show q.val = win0_5.index t (1 : Fin 2) * 128 + 1 * q.val; omega

/-! ## The blocks tile the array -/

theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Row r lies in the block of point r / 400. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : (i 0).val / 400 < cfg0.N := lt_of_lt_of_eq (by omega : (i 0).val / 400 < 25) N_0.symm
  refine ⟨⟨(i 0).val / 400, hN⟩, flush0_5 _, ?_⟩
  rw [mem_blk]
  obtain ⟨-, -, -, -, -, -, -, -, -, -, e50, e51⟩ := idx_facts ⟨(i 0).val / 400, hN⟩
  intro a
  match a with
  | ⟨0, _⟩ =>
    show win0_5.index ⟨(i 0).val / 400, hN⟩ (0 : Fin 2) * 400 ≤ (i 0).val ∧ (i 0).val < win0_5.index ⟨(i 0).val / 400, hN⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, hN⟩ (1 : Fin 2) * 128 ≤ (i 1).val ∧ (i 1).val < win0_5.index ⟨(i 0).val / 400, hN⟩ (1 : Fin 2) * 128 + 128
    rw [e51]; omega

/-- THE ARRAY after the run is the specification of the argument arrays. -/
theorem final (c : Dev nD) : (dats m 0 c).arrAt 5 cfg0.N = Gm m c :=
  (dats m 0 c).arrAt_eq_of_cover 5 (Gm m c) (fun t _ => flushed_eq m c t) cover

/-! ## The run, read -/

/-- Every weakly fair execution of the idealized kernel terminates with the result array at the specification of the
    argument arrays and the argument arrays unchanged. -/
theorem run : θ_run defs (onTc (τ := τ) (main (F := Ideal))) ⟨m, fun _ => 0, ρ⟩ fun r => ∀ c : Dev nD,
      r.2.mem ((c.tc : Thread nD τ).loc main_v1) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 5).trans (final m c), args_kept m (dats m) (A_eq m) r h c⟩) (run_main m ρ)

end Cert.KernelIdeal.KValue

end
-- ==== Proof.RefIsSpec.lean ====
/-
  The reference computes the specification: its last stage, read one operation at a time, is `G` at every index.
-/
import proofs.«131740_g8435315769432_cont_9to1_m_1355_7_alg».proof.Proof.Gen.ReferenceIdeal.Read
import proofs.«131740_g8435315769432_cont_9to1_m_1355_7_alg».proof.Proof.Spec
import Idealize.ShloMosaic.PureOps.Ideal.Laws

noncomputable section

namespace Cert.ReferenceIdeal.RefValue

open Cert.ReferenceIdeal Cert.ReferenceIdeal.Read Cert.GcnSpec Idealize.ShloMosaic Idealize.ShloMosaic.ValueIdx

/-- The sum (A X) W + b of the reference at row `r`, column `j`: the two products as nested sums, the bias read through
    its two broadcasts. -/
theorem lin_eq (X : S10000x128.Idx → EReal) (A : S10000x10000.Idx → EReal) (W : S128x128.Idx → EReal) (b : S128.Idx → EReal)
    (r : Fin 10000) (j : Fin 128) :
    val_main_v4 (F := Ideal) X A W b (ix2 r j) = lin X A W b r j := by
  rw [val_main_v4_apply, val_main_v1_apply, val_main_v3_apply, val_main_v2_apply]
  unfold lin
  rw [Ideal.addf_def]
  congr 1
  · refine Finset.sum_congr rfl fun k _ => ?_
    rw [val_main_v0_apply]
    have e1 : lidx_main_v1 (ix2 r j) k = ix2 r k := funext fun a => Fin.ext (by match a with | ⟨0, _⟩ => rfl | ⟨1, _⟩ => rfl)
    have e2 : ridx_main_v1 (ix2 r j) k = ix2 k j := funext fun a => Fin.ext (by match a with | ⟨0, _⟩ => rfl | ⟨1, _⟩ => rfl)
    rw [e1, e2]
    congr 1
    refine Finset.sum_congr rfl fun l _ => ?_
    have e3 : lidx_main_v0 (ix2 r k) l = ix2 r l := funext fun a => Fin.ext (by match a with | ⟨0, _⟩ => rfl | ⟨1, _⟩ => rfl)
    have e4 : ridx_main_v0 (ix2 r k) l = ix2 l k := funext fun a => Fin.ext (by match a with | ⟨0, _⟩ => rfl | ⟨1, _⟩ => rfl)
    rw [e3, e4]
  · exact congrArg b (funext fun a => Fin.ext (by match a with | ⟨0, _⟩ => rfl))

/-- The reference's result is `G` of its arguments. -/
theorem ref_eq (X : S10000x128.Idx → EReal) (A : S10000x10000.Idx → EReal) (W : S128x128.Idx → EReal) (b : S128.Idx → EReal) :
    val_main_v8 (F := Ideal) X A W b = G X A W b := by
  funext i
  obtain ⟨r, j, rfl⟩ : ∃ (r : Fin 10000) (j : Fin 128), i = ix2 r j := ⟨i 0, i 1, eq_ix2 i⟩
  rw [val_main_v8_apply, val_main_v7_apply, val_main_v6_apply, val_main_v5_apply, val_main_call0_v1_apply, G_apply, lin_eq]
  rw [Ideal.hostDivf_def, Ideal.hostUnary_sqrt_def]
  congr 2
  rw [val_main_call0_cst_apply]
  show Ideal.ofBits .f32 0x00000000#32 + _ = _
  rw [Ideal.ofBits_zero_f32, zero_add]
  unfold sumSq
  refine Finset.sum_congr rfl fun k _ => ?_
  rw [val_main_call0_v0_apply, Ideal.mulf_def]
  have e : idx_main_call0_v1 (idx_main_v6 (idx_main_v7 (ix2 r j))) k = ix2 r k :=
    funext fun a => Fin.ext (by match a with | ⟨0, _⟩ => exact (Nat.add_zero _).trans (Nat.mul_one _) | ⟨1, _⟩ => rfl)
  rw [e, lin_eq]

end Cert.ReferenceIdeal.RefValue

end
-- ==== Proof.lean ====
/-
  A graph-convolution layer with row normalization: out = rownormalize((A X) W + b), A a dense 10000 x 10000
  adjacency matrix, X the 10000 x 128 features, W a 128 x 128 weight, b a bias; each row of (A X) W + b is divided by
  its Euclidean norm.

  The kernel walks the rows in 25 steps of 400. At each step it reads two consecutive 200-row strips of A through two
  windows on the same array, multiplies each by the whole of X, stacks the two products, multiplies the stack by W,
  adds b, and divides every row by the square root of the sum of its squares. The reference computes the same
  expression on the whole arrays. Over the extended reals both are one function `G` of the four argument arrays
  (Proof/Spec.lean): the products are grouped alike on both sides, the sum of squares and the square root and the
  quotient are the same operations, so the two results agree index by index with no appeal to finiteness.

  The frames: the reference is a straight line of host operations, and its run is read off its operations. The
  kernel's two programs (as printed, and read at the extended reals) have one region; the adjacency array's full share
  is dealt in halves to its two input windows (Proof/LibFrameShared.lean, Proof/KernelFrame.lean,
  Proof/KernelIdealFrame.lean). The idealization rewrote nothing, so `preserves` is trivially true.
-/
import proofs.«131740_g8435315769432_cont_9to1_m_1355_7_alg».proof.Defs
import proofs.«131740_g8435315769432_cont_9to1_m_1355_7_alg».proof.Proof.Gen.Kernel
import proofs.«131740_g8435315769432_cont_9to1_m_1355_7_alg».proof.Proof.Gen.KernelIdeal
import proofs.«131740_g8435315769432_cont_9to1_m_1355_7_alg».proof.Proof.Gen.ReferenceIdeal
import proofs.«131740_g8435315769432_cont_9to1_m_1355_7_alg».proof.Proof.Gen.Pre_finite_inputs
import proofs.«131740_g8435315769432_cont_9to1_m_1355_7_alg».proof.Proof.Gen.ReferenceIdeal.Run
import proofs.«131740_g8435315769432_cont_9to1_m_1355_7_alg».proof.Proof.Gen.ReferenceIdeal.Read
import proofs.«131740_g8435315769432_cont_9to1_m_1355_7_alg».proof.Proof.KernelFrame
import proofs.«131740_g8435315769432_cont_9to1_m_1355_7_alg».proof.Proof.KernelIdealFrame
import proofs.«131740_g8435315769432_cont_9to1_m_1355_7_alg».proof.Proof.KernelValue
import proofs.«131740_g8435315769432_cont_9to1_m_1355_7_alg».proof.Proof.RefIsSpec

noncomputable section

namespace Cert.Proof

open Idealize.ShloMosaic Idealize.SL.Sem

/-- The printed kernel runs to the end, faults nowhere and leaves its arguments unchanged. -/
theorem frame_kernel : Cert.frame_Kernel := fun m ρ _ => Cert.Kernel.Frame.frame m ρ

/-- So does the kernel read at the extended reals. -/
theorem frame_kernelIdeal : Cert.frame_KernelIdeal := fun m ρ _ => Cert.KernelIdeal.Frame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel ends with its result at `G` of the arguments, and the
    reference's result, read one operation at a time, is `G` of the same arguments. -/
theorem algebraic : Cert.algebraic_KernelIdeal_ReferenceIdeal := by
  intro m ρ m' ρ' _ hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
